-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536x64 : Shape := ⟨2, ![65536, 64]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S512x1024 .f32) (main_arg12 : FVec F S1024 .f32) (main_arg13 : FVec F S512x1024 .f32) (main_arg14 : FVec F S1024 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1024 .f32 := Host.absf main_arg11
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_v63 main_v67

def fn_part2 {F : FTy → Type} [FloatOps F] (main_arg7 : FVec F S512x64 .f32) (main_arg8 : FVec F S64 .f32) (main_arg9 : FVec F S64x512 .f32) (main_arg10 : FVec F S512 .f32) (main_arg11 : FVec F S512x1024 .f32) (main_arg12 : FVec F S1024 .f32) (main_arg13 : FVec F S512x1024 .f32) (main_arg14 : FVec F S1024 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x512 .f32 := Host.absf main_arg9
  let main_cst_16 : FVec F S_ .f32 := constant S_ .f32 0x7F800000#32
  let main_v45 : FVec F S64x512 .f32 := broadcastInDim S64x512 ![] bcast_S_S64x512 main_cst_16
  let main_v46 : IVec S64x512 1 := cmpf .olt main_v44 main_v45
  let main_c_17 : IVec S_ 1 := constantI S_ 1 1#1
  let main_v47 : IVec S_ 1 := (fun x v => Host.reduce IntOp.andi x v reducesTo_S64x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x64 .f32) (main_arg6 : FVec F S64 .f32) (main_arg7 : FVec F S512x64 .f32) (main_arg8 : FVec F S64 .f32) (main_arg9 : FVec F S64x512 .f32) (main_arg10 : FVec F S512 .f32) (main_arg11 : FVec F S512x1024 .f32) (main_arg12 : FVec F S1024 .f32) (main_arg13 : FVec F S512x1024 .f32) (main_arg14 : FVec F S1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x1024 .f32) (main_arg1 : FVec F S65536x1024 .f32) (main_arg2 : FVec F S65536x64 .f32) (main_arg3 : FVec F S1024x512 .f32) (main_arg4 : FVec F S512 .f32) (main_arg5 : FVec F S512x64 .f32) (main_arg6 : FVec F S64 .f32) (main_arg7 : FVec F S512x64 .f32) (main_arg8 : FVec F S64 .f32) (main_arg9 : FVec F S64x512 .f32) (main_arg10 : FVec F S512 .f32) (main_arg11 : FVec F S512x1024 .f32) (main_arg12 : FVec F S1024 .f32) (main_arg13 : FVec F S512x1024 .f32) (main_arg14 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x1024 : Shape := ⟨2, ![65536, 1024]⟩
abbrev S65536x64 : Shape := ⟨2, ![65536, 64]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024 : Shape := ⟨1, ![1024]⟩
abbrev S65536 : Shape := ⟨1, ![65536]⟩
abbrev S256x1024 : Shape := ⟨2, ![256, 1024]⟩
abbrev S256x64 : Shape := ⟨2, ![256, 64]⟩
abbrev S256 : Shape := ⟨1, ![256]⟩
abbrev S256x512 : Shape := ⟨2, ![256, 512]⟩
abbrev S1x512 : Shape := ⟨2, ![1, 512]⟩
abbrev S1x64 : Shape := ⟨2, ![1, 64]⟩
abbrev S1x1024 : Shape := ⟨2, ![1, 1024]⟩
abbrev S256x1 : Shape := ⟨2, ![256, 1]⟩
abbrev S_ : Shape := ⟨0, ![]⟩

abbrev nBuf : Space → Nat
  | .hbm => 20
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x64, .f32⟩
  | .hbm, ⟨3, _⟩ => ⟨S1024x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S512x64, .f32⟩
  | .hbm, ⟨8, _⟩ => ⟨S64, .f32⟩
  | .hbm, ⟨9, _⟩ => ⟨S64x512, .f32⟩
  | .hbm, ⟨10, _⟩ => ⟨S512, .f32⟩
  | .hbm, ⟨11, _⟩ => ⟨S512x1024, .f32⟩
  | .hbm, ⟨12, _⟩ => ⟨S1024, .f32⟩
  | .hbm, ⟨13, _⟩ => ⟨S512x1024, .f32⟩
  | .hbm, ⟨14, _⟩ => ⟨S1024, .f32⟩
  | .hbm, ⟨15, _⟩ => ⟨S65536, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x64, .f32⟩
  | .local _ .vmem, ⟨5, _⟩ => ⟨S256x64, .f32⟩
  | .local _ .vmem, ⟨6, _⟩ => ⟨S1024x512, .f32⟩
  | .local _ .vmem, ⟨7, _⟩ => ⟨S512, .f32⟩
  | .local _ .vmem, ⟨8, _⟩ => ⟨S512x64, .f32⟩
  | .local _ .vmem, ⟨9, _⟩ => ⟨S64, .f32⟩
  | .local _ .vmem, ⟨10, _⟩ => ⟨S512x64, .f32⟩
  | .local _ .vmem, ⟨11, _⟩ => ⟨S64, .f32⟩
  | .local _ .vmem, ⟨12, _⟩ => ⟨S64x512, .f32⟩
  | .local _ .vmem, ⟨13, _⟩ => ⟨S512, .f32⟩
  | .local _ .vmem, ⟨14, _⟩ => ⟨S512x1024, .f32⟩
  | .local _ .vmem, ⟨15, _⟩ => ⟨S1024, .f32⟩
  | .local _ .vmem, ⟨16, _⟩ => ⟨S512x1024, .f32⟩
  | .local _ .vmem, ⟨17, _⟩ => ⟨S1024, .f32⟩
  | .local _ .vmem, ⟨18, _⟩ => ⟨S256, .f32⟩
  | .local _ .vmem, ⟨19, _⟩ => ⟨S256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S64x512_S64x512_0_0 : ∀ a, (![0, 0] : Fin 2 → Nat) a + S64x512.size a ≤ S64x512.size a
  h_S64x512 : 0 < S64x512.numel
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  reduces_S256x64_S256 : S256x64.Reduces [1] S256
  inb_S256_S256_0 : ∀ a, (![0] : Fin 1 → Nat) a + S256.size a ≤ S256.size a
  h_S256 : 0 < S256.numel
  reducesTo_S65536_S_d0 : S65536.ReducesTo [0] S_
  h_S_ : 0 < S_.numel
  dot_S256x1024_S1024x512_S256x512_1_0_0_1_n_n_wf : DotDims.WF S256x1024 S1024x512 S256x512 [1] [0] [0] [1] [] []
  dot_S256x512_S512x64_S256x64_1_0_0_1_n_n_wf : DotDims.WF S256x512 S512x64 S256x64 [1] [0] [0] [1] [] []
  dot_S256x64_S64x512_S256x512_1_0_0_1_n_n_wf : DotDims.WF S256x64 S64x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S65536x1024.size a
  hwx0_1 : ∀ i : grid0.Coords, EltTy.bits .f32 = 32 ∨ (Rect.block (s := S65536x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S65536x64.size a
  hwx0_2 : ∀ i : grid0.Coords, EltTy.bits .f32 = 32 ∨ (Rect.block (s := S65536x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .f32 = 32 ∨ (Rect.block (s := S512x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x512.size a ≤ S64x512.size a
  hwx0_9 : ∀ i : grid0.Coords, EltTy.bits .f32 = 32 ∨ (Rect.block (s := S64x512) S64x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S512x1024.size a
  hwx0_11 : ∀ i : grid0.Coords, EltTy.bits .f32 = 32 ∨ (Rect.block (s := S512x1024) S512x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .f32 = 32 ∨ (Rect.block (s := S512x1024) S512x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S65536.size a
  hwx0_15 : ∀ i : grid0.Coords, EltTy.bits .f32 = 32 ∨ (Rect.block (s := S65536) S256.size (cc0_transform_15 i) (hinb0_15 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536x64 : Shape := ⟨2, ![65536, 64]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S512x1024 : Shape := ⟨2, ![512, 1024]⟩
abbrev S1024 : Shape := ⟨1, ![1024]⟩
abbrev S65536x512 : Shape := ⟨2, ![65536, 512]⟩
abbrev S1x512 : Shape := ⟨2, ![1, 512]⟩
abbrev S1x64 : Shape := ⟨2, ![1, 64]⟩
abbrev S_ : Shape := ⟨0, ![]⟩
abbrev S1x1024 : Shape := ⟨2, ![1, 1024]⟩
abbrev S65536 : Shape := ⟨1, ![65536]⟩
abbrev S65536x1 : Shape := ⟨2, ![65536, 1]⟩

abbrev nBuf : Space → Nat
  | .hbm => 95
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x64, .f32⟩
  | .hbm, ⟨3, _⟩ => ⟨S1024x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S512x64, .f32⟩
  | .hbm, ⟨8, _⟩ => ⟨S64, .f32⟩
  | .hbm, ⟨9, _⟩ => ⟨S64x512, .f32⟩
  | .hbm, ⟨10, _⟩ => ⟨S512, .f32⟩
  | .hbm, ⟨11, _⟩ => ⟨S512x1024, .f32⟩
  | .hbm, ⟨12, _⟩ => ⟨S1024, .f32⟩
  | .hbm, ⟨13, _⟩ => ⟨S512x1024, .f32⟩
  | .hbm, ⟨14, _⟩ => ⟨S1024, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x64, .f32⟩
  | .hbm, ⟨21, _⟩ => ⟨S1x64, .f32⟩
  | .hbm, ⟨22, _⟩ => ⟨S65536x64, .f32⟩
  | .hbm, ⟨23, _⟩ => ⟨S65536x64, .f32⟩
  | .hbm, ⟨24, _⟩ => ⟨S65536x64, .f32⟩
  | .hbm, ⟨25, _⟩ => ⟨S1x64, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536x64, .f32⟩
  | .hbm, ⟨30, _⟩ => ⟨S65536x64, .f32⟩
  | .hbm, ⟨31, _⟩ => ⟨S65536x64, .f32⟩
  | .hbm, ⟨32, _⟩ => ⟨S65536x64, .f32⟩
  | .hbm, ⟨33, _⟩ => ⟨S65536x64, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S_, .f32⟩
  | .hbm, ⟨46, _⟩ => ⟨S65536, .f32⟩
  | .hbm, ⟨47, _⟩ => ⟨S65536, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536x64, .f32⟩
  | .hbm, ⟨63, _⟩ => ⟨S65536x64, .f32⟩
  | .hbm, ⟨64, _⟩ => ⟨S65536x64, .f32⟩
  | .hbm, ⟨65, _⟩ => ⟨S65536x64, .f32⟩
  | .hbm, ⟨66, _⟩ => ⟨S65536x64, .f32⟩
  | .hbm, ⟨67, _⟩ => ⟨S65536x64, .f32⟩
  | .hbm, ⟨68, _⟩ => ⟨S_, .f32⟩
  | .hbm, ⟨69, _⟩ => ⟨S65536, .f32⟩
  | .hbm, ⟨70, _⟩ => ⟨S_, .f32⟩
  | .hbm, ⟨71, _⟩ => ⟨S65536, .f32⟩
  | .hbm, ⟨72, _⟩ => ⟨S65536, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S_, .f32⟩
  | .hbm, ⟨80, _⟩ => ⟨S65536x1024, .f32⟩
  | .hbm, ⟨81, _⟩ => ⟨S65536x1024, .f32⟩
  | .hbm, ⟨82, _⟩ => ⟨S_, .f32⟩
  | .hbm, ⟨83, _⟩ => ⟨S65536, .f32⟩
  | .hbm, ⟨84, _⟩ => ⟨S_, .f32⟩
  | .hbm, ⟨85, _⟩ => ⟨S65536, .f32⟩
  | .hbm, ⟨86, _⟩ => ⟨S65536, .f32⟩
  | .hbm, ⟨87, _⟩ => ⟨S_, .f32⟩
  | .hbm, ⟨88, _⟩ => ⟨S65536, .f32⟩
  | .hbm, ⟨89, _⟩ => ⟨S65536, .f32⟩
  | .hbm, ⟨90, _⟩ => ⟨S65536, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  reducesTo_S65536x64_S65536_d1 : S65536x64.ReducesTo [1] S65536
  bcast_S_S65536x1024 : S_.BroadcastsInDim S65536x1024 (![] : Fin 0 → Fin S65536x1024.rank)
  reducesTo_S65536_S_d0 : S65536.ReducesTo [0] S_
  dot_S65536x1024_S1024x512_S65536x512_1_0_0_1_n_n_wf : DotDims.WF S65536x1024 S1024x512 S65536x512 [1] [0] [0] [1] [] []
  dot_S65536x512_S512x64_S65536x64_1_0_0_1_n_n_wf : DotDims.WF S65536x512 S512x64 S65536x64 [1] [0] [0] [1] [] []
  dot_S65536x64_S64x512_S65536x512_1_0_0_1_n_n_wf : DotDims.WF S65536x64 S64x512 S65536x512 [1] [0] [0] [1] [] []
  dot_S65536x512_S512x1024_S65536x1024_1_0_0_1_n_n_wf : DotDims.WF S65536x512 S512x1024 S65536x1024 [1] [0] [0] [1] [] []

variable [Facts₀]

def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf

class Facts : Prop extends Facts₀ where

variable [Facts]
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«144651_j11493332484853_1_alg».proof.Proof.LibPlainDot
import proofs.«144651_j11493332484853_1_alg».proof.Proof.LibRowBias
import proofs.«144651_j11493332484853_1_alg».proof.Proof.LibBroadcast
import proofs.«144651_j11493332484853_1_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowSoftmax.lean ====
/-
  Softmax along the rows of a matrix, in the vector unit's spelling and in the host's, read at one entry on
  the extended reals.

  Both lowerings of `softmax(x, axis = -1)` on an [R, C] array take the row's maximum as a fold of `max` from
  −∞ (and once more against a −∞ splat), subtract it as a column repeated across the lanes, exponentiate,
  sum the row from zero, and divide by that sum repeated across the lanes. At entry (p, c) each is the same
  function `softmax` of row p. No law of the extended reals is used: the two spellings are the same
  operations in the same order. Any extents (the host's broadcast rule needs R ≠ 1); depends on no program.
-/
import proofs.«144651_j11493332484853_1_alg».proof.Proof.LibAxisFold
import proofs.«144651_j11493332484853_1_alg».proof.Proof.LibHostRowFold
import proofs.«144651_j11493332484853_1_alg».proof.Proof.LibRowLayer

noncomputable section

open scoped BigOperators

namespace Cert.RowSoftmax

open Idealize.ShloMosaic Idealize.ShloMosaic.ValueIdx

/-- −∞, as the f32 word both programs print. -/
abbrev ninf : EReal := Ideal.ofBits .f32 0xFF800000#32

/-- A row's maximum: the fold of `max` from −∞, and once more against −∞. -/
def top {n : ℕ} (l : Fin n → EReal) : EReal := max ninf ((Finset.univ : Finset (Fin n)).fold max ninf l)
/-- The exponential of an entry shifted by the row's maximum. -/
def shifted {n : ℕ} (l : Fin n → EReal) (c : Fin n) : EReal := Ideal.exp (l c - top l)
/-- The row's softmax. -/
def softmax {n : ℕ} (l : Fin n → EReal) (c : Fin n) : EReal := Ideal.div (shifted l c) (∑ k : Fin n, shifted l k)

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The shifted exponentials as the vector unit computes them. -/
abbrev kernelShifted : FVec Ideal ⟨2, ![R, C]⟩ .f32 :=
  exp (subf lg (broadcastTo ⟨2, ![R, C]⟩ (shapeCast ⟨2, ![R, 1]⟩
    (maximumf (broadcast ⟨1, ![R]⟩ (Scalar.ofBits .f32 0xFF800000#32))
      (multiReduction .maximumf [1] ⟨1, ![R]⟩ lg 0xFF800000#32 hr hφ hmax)) hs) hb))

theorem kernel_shifted (p : Fin R) (c : Fin C) :
    kernelShifted lg hr hφ hmax hs hb (ix2 p c) = shifted (fun k => lg (ix2 p k)) c :=
  congrArg (fun z => Ideal.exp (lg (ix2 p c) - z))
    ((RowLayer.kernel_across _ hs hb p c).trans (congrArg (max ninf) (AxisFold.row_max lg 0xFF800000#32 hr hφ hmax p)))

/-- The vector unit's softmax, at entry (p, c). -/
theorem kernel_softmax (p : Fin R) (c : Fin C) :
    divf (kernelShifted lg hr hφ hmax hs hb)
      (broadcastTo ⟨2, ![R, C]⟩ (shapeCast ⟨2, ![R, 1]⟩
        (multiReduction .add [1] ⟨1, ![R]⟩ (kernelShifted lg hr hφ hmax hs hb) 0x00000000#32 hr hφ hadd) hs) hb) (ix2 p c)
      = softmax (fun k => lg (ix2 p k)) c :=
  congrArg₂ Ideal.div (kernel_shifted lg hr hφ hmax hs hb p c)
    ((RowLayer.kernel_across _ hs hb p c).trans
      ((AxisFold.row_sum (kernelShifted lg hr hφ hmax hs hb) hr hφ hadd p).trans
        (Finset.sum_congr rfl fun k _ => kernel_shifted lg hr hφ hmax hs hb p k)))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The shifted exponentials as the host computes them. -/
abbrev hostShifted : FVec Ideal ⟨2, ![R, C]⟩ .f32 :=
  Host.exp (subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu)))))

theorem host_shifted (hR : R ≠ 1) (p : Fin R) (c : Fin C) :
    hostShifted lg h' hu h0 h1 h2 (ix2 p c) = shifted (fun k => lg (ix2 p k)) c :=
  congrArg (fun z => Ideal.exp (lg (ix2 p c) - z))
    ((RowLayer.host_across hR _ h1 h2 p c).trans
      (congrArg₂ max (Bcast.scalar_apply _ h0 (ix1 p)) (HostRowFold.row_max lg _ h' hu p)))

/-- The host's softmax, at entry (p, c). -/
theorem host_softmax (hR : R ≠ 1) (p : Fin R) (c : Fin C) :
    Host.divf (hostShifted lg h' hu h0 h1 h2)
      (broadcastInDim ⟨2, ![R, C]⟩ ![0, 1] h2 (broadcastInDim ⟨2, ![R, 1]⟩ ![0] h1
        (Host.reduceAdd (hostShifted lg h' hu h0 h1 h2) (constant (F := Ideal) ⟨0, ![]⟩ .f32 0x00000000#32) h' hu))) (ix2 p c)
      = softmax (fun k => lg (ix2 p k)) c :=
  congrArg₂ Ideal.div (host_shifted lg h' hu h0 h1 h2 hR p c)
    ((RowLayer.host_across hR _ h1 h2 p c).trans
      ((HostRowFold.row_sum_zero (hostShifted lg h' hu h0 h1 h2) h' hu p).trans
        (Finset.sum_congr rfl fun k _ => host_shifted lg h' hu h0 h1 h2 hR p k)))

end Host

end Cert.RowSoftmax

end
-- ==== Proof.RowSpec.lean ====
/-
  One sample's objective of a variational autoencoder, on the extended reals.

  A sample has three rows: a noisy input `xn` and a clean input `x` of 1024 entries, and a noise
  row `e` of 64 entries. With the twelve weight arrays `W` shared by all samples,

    h    = tanh (xn · w1 + b1)                      (512 entries)
    μ    = h · wmu + bmu,   λ = h · wlv + blv        (64 entries each)
    z    = μ + exp (½ · λ) · e
    g    = tanh (z · dw1 + db1)                      (512 entries)
    ℓ    = g · dwmu + dbmu,  ν = g · dwlv + dblv     (1024 entries each)
    π    = softmax ℓ   (shifted by the row's maximum, taken from −∞: the row-softmax file's)
    kl   = −½ · Σ_c (1 + λ_c − μ_c² − exp λ_c)
    ll   = −½ · Σ_c (ν_c + (x_c − π_c)² · exp (−ν_c) + log 2π)
    loss = ll − 1 · kl.

  Every product `row · matrix` is a finite sum over the contracted coordinate, and every operation is
  the exact one on the extended reals. The float literals stay the words the programs print: the
  same word on both sides of an equation is never evaluated.
-/
import Idealize.ShloMosaic.PureOps.Ideal
import Idealize.ShloMosaic.Lib.ValueIdx
import proofs.«144651_j11493332484853_1_alg».proof.Proof.LibRowSoftmax

noncomputable section

open scoped BigOperators

namespace Cert.Vae

open Idealize.ShloMosaic Idealize.ShloMosaic.ValueIdx

/-- An [a, b] array of extended reals. -/
abbrev Mat (a b : ℕ) : Type := (⟨2, ![a, b]⟩ : Shape).Idx → EReal
/-- A length-a vector of extended reals. -/
abbrev Vect (a : ℕ) : Type := (⟨1, ![a]⟩ : Shape).Idx → EReal

/-- Row `p` of an [a, b] array. -/
def row {a b : ℕ} (x : Mat a b) (p : Fin a) : Fin b → EReal := fun q => x (ix2 p q)

/-- The product of a row with a [k, n] matrix, at column `c`. -/
def rowDot {k n : ℕ} (w : Mat k n) (x : Fin k → EReal) (c : Fin n) : EReal := ∑ q : Fin k, x q * w (ix2 q c)

/-- A dense layer's pre-activation on one row: `x · w + b` at column `c`. -/
def dense {k n : ℕ} (w : Mat k n) (b : Vect n) (x : Fin k → EReal) (c : Fin n) : EReal := rowDot w x c + b (ix1 c)

/-- The weight arrays, shared by all samples. -/
structure Weights where
  w1 : Mat 1024 512
  b1 : Vect 512
  wmu : Mat 512 64
  bmu : Vect 64
  wlv : Mat 512 64
  blv : Vect 64
  dw1 : Mat 64 512
  db1 : Vect 512
  dwmu : Mat 512 1024
  dbmu : Vect 1024
  dwlv : Mat 512 1024
  dblv : Vect 1024

/-- The literals, as the words both programs print: ½, −½, 1 and the f32 nearest to log 2π (−∞ is the softmax file's). -/
abbrev half : EReal := Ideal.ofBits .f32 0x3F000000#32
abbrev mhalf : EReal := Ideal.ofBits .f32 0xBF000000#32
abbrev one : EReal := Ideal.ofBits .f32 0x3F800000#32
abbrev log2pi : EReal := Ideal.ofBits .f32 0x3FEB3F8E#32

variable (W : Weights)

/-- The encoder's hidden row. -/
def hid (xn : Fin 1024 → EReal) (c : Fin 512) : EReal := Ideal.tanh (dense W.w1 W.b1 xn c)
/-- The latent mean. -/
def muz (xn : Fin 1024 → EReal) (c : Fin 64) : EReal := dense W.wmu W.bmu (hid W xn) c
/-- The latent log-variance. -/
def lvz (xn : Fin 1024 → EReal) (c : Fin 64) : EReal := dense W.wlv W.blv (hid W xn) c
/-- The reparameterised latent sample. -/
def lat (xn : Fin 1024 → EReal) (e : Fin 64 → EReal) (c : Fin 64) : EReal :=
  muz W xn c + Ideal.exp (half * lvz W xn c) * e c
/-- The decoder's hidden row. -/
def hdec (xn : Fin 1024 → EReal) (e : Fin 64 → EReal) (c : Fin 512) : EReal :=
  Ideal.tanh (dense W.dw1 W.db1 (lat W xn e) c)
/-- The decoder's logits. -/
def logit (xn : Fin 1024 → EReal) (e : Fin 64 → EReal) (c : Fin 1024) : EReal := dense W.dwmu W.dbmu (hdec W xn e) c
/-- The decoder's log-variance. -/
def lvx (xn : Fin 1024 → EReal) (e : Fin 64 → EReal) (c : Fin 1024) : EReal := dense W.dwlv W.dblv (hdec W xn e) c

/-- The Kullback–Leibler term from a mean row and a log-variance row. -/
def klOf {n : ℕ} (mu lv : Fin n → EReal) : EReal :=
  mhalf * ∑ c : Fin n, (((one + lv c) - mu c * mu c) - Ideal.exp (lv c))
/-- The squared error of `x` against a probability row. -/
def sqErr {n : ℕ} (x pr : Fin n → EReal) (c : Fin n) : EReal := (x c - pr c) * (x c - pr c)
/-- The log-likelihood term from the log-variance row, the squared errors and the precisions. -/
def llOf {n : ℕ} (lv sq pr : Fin n → EReal) : EReal :=
  mhalf * ∑ c : Fin n, ((lv c + sq c * pr c) + log2pi)

/-- One sample's objective. -/
def loss (xn x : Fin 1024 → EReal) (e : Fin 64 → EReal) : EReal :=
  llOf (lvx W xn e) (sqErr x (RowSoftmax.softmax (logit W xn e))) (fun c => Ideal.exp (-(lvx W xn e c))) - one * klOf (muz W xn) (lvz W xn)

/-- The per-sample vector of 65536 samples: entry i is the objective of rows i of the three sample arrays. -/
def perSampleOf (W : Weights) (a0 a1 : Mat 65536 1024) (a2 : Mat 65536 64) : Vect 65536 := fun i =>
  loss W (row a0 ⟨(i 0).val, (i 0).isLt⟩) (row a1 ⟨(i 0).val, (i 0).isLt⟩) (row a2 ⟨(i 0).val, (i 0).isLt⟩)

/-- The mean over the 65536 samples, as both programs take it after the per-sample vector is known: the
    host's float sum from zero, divided by 65536. It is applied to equal vectors and never opened. -/
def mean (v : Vect 65536) : (⟨0, ![]⟩ : Shape).Idx → EReal :=
  Host.divf (F := Ideal) (φ := .f32)
    (Host.reduceAdd (F := Ideal) (φ := .f32) (axes := [0]) (t := ⟨0, ![]⟩) v (constant (F := Ideal) ⟨0, ![]⟩ .f32 0x00000000#32))
    (constant (F := Ideal) ⟨0, ![]⟩ .f32 0x47800000#32)

end Cert.Vae

end
-- ==== Proof.KernelRow.lean ====
/-
  The kernel's arithmetic on one block of 256 samples, read at one sample.

  The body's stored value is a composition of ten pure pieces over the block's inputs. Each piece is a
  row-wise operation: entry p of its result depends on row p of the three sample arrays and on the whole
  weight arrays. Piece by piece — a dense layer as a finite sum plus a bias, the row softmax, the two row
  sums — the value stored at position p of the block is `loss` of rows p. The float-format changes on the
  way into each product are the identity on the extended reals, and the kernel's `0 − ν` is `−ν`.
-/
import proofs.«144651_j11493332484853_1_alg».proof.Proof.Gen.KernelIdeal.Skeleton
import proofs.«144651_j11493332484853_1_alg».proof.Proof.RowSpec
import proofs.«144651_j11493332484853_1_alg».proof.Proof.LibRowLayer
import proofs.«144651_j11493332484853_1_alg».proof.Proof.LibRowSoftmax
import proofs.«144651_j11493332484853_1_alg».proof.Proof.LibAxisFold

noncomputable section

open scoped BigOperators

namespace Cert.Vae.KernelRow

open Idealize.ShloMosaic Idealize.ShloMosaic.ValueIdx Cert.KernelIdeal Cert.KernelIdeal.Gen Cert.Vae

/-- The four products of the body are plain ones: rows of the left operand against columns of the right. -/
theorem plain1 : PlainDot.IsPlain dot_S256x1024_S1024x512_S256x512_1_0_0_1_n_n := ⟨rfl, rfl, rfl, rfl, rfl, rfl⟩
theorem plain2 : PlainDot.IsPlain dot_S256x512_S512x64_S256x64_1_0_0_1_n_n := ⟨rfl, rfl, rfl, rfl, rfl, rfl⟩
theorem plain3 : PlainDot.IsPlain dot_S256x64_S64x512_S256x512_1_0_0_1_n_n := ⟨rfl, rfl, rfl, rfl, rfl, rfl⟩
theorem plain4 : PlainDot.IsPlain dot_S256x512_S512x1024_S256x1024_1_0_0_1_n_n := ⟨rfl, rfl, rfl, rfl, rfl, rfl⟩

variable (W : Weights)

/-- The encoder's hidden block at (p, c): the hidden row of sample p. -/
theorem hid_at (x0 : FVec Ideal S256x1024 .f32) (p : Fin 256) (c : Fin 512) :
    k0_pay2 (F := Ideal) x0 W.w1 W.b1 (ix2 p c) = hid W (row x0 p) c := by
  unfold k0_pay2 hid dense rowDot row
  exact congrArg Ideal.tanh (RowLayer.kernel_dense plain1 (by decide) none _ _ _ _ _ p c)

/-- The latent mean block at (p, c). -/
theorem muz_at (x0 : FVec Ideal S256x1024 .f32) (p : Fin 256) (c : Fin 64) :
    k0_pay3 (F := Ideal) x0 W.w1 W.b1 W.wmu W.bmu (ix2 p c) = muz W (row x0 p) c := by
  unfold k0_pay3 muz dense rowDot
  refine (RowLayer.kernel_dense plain2 (by decide) none _ _ _ _ _ p c).trans ?_
  exact congrArg (· + W.bmu (ix1 c)) (Finset.sum_congr rfl fun q _ => congrArg (· * W.wmu (ix2 q c)) (hid_at W x0 p q))

/-- The latent log-variance block at (p, c). -/
theorem lvz_at (x0 : FVec Ideal S256x1024 .f32) (p : Fin 256) (c : Fin 64) :
    k0_pay4 (F := Ideal) x0 W.w1 W.b1 W.wlv W.blv (ix2 p c) = lvz W (row x0 p) c := by
  unfold k0_pay4 lvz dense rowDot
  refine (RowLayer.kernel_dense plain2 (by decide) none _ _ _ _ _ p c).trans ?_
  exact congrArg (· + W.blv (ix1 c)) (Finset.sum_congr rfl fun q _ => congrArg (· * W.wlv (ix2 q c)) (hid_at W x0 p q))

/-- The decoder's first product (before its bias) at (p, c): the latent sample's row against the weights. -/
theorem dec_at (x0 : FVec Ideal S256x1024 .f32) (x2 : FVec Ideal S256x64 .f32) (p : Fin 256) (c : Fin 512) :
    k0_pay5 (F := Ideal) x0 x2 W.w1 W.b1 W.wmu W.bmu W.wlv W.blv W.dw1 (ix2 p c) = rowDot W.dw1 (lat W (row x0 p) (row x2 p)) c := by
  unfold k0_pay5 rowDot
  refine (PlainDot.matmul_zero_apply plain3 none _ _ p c).trans ?_
  refine Finset.sum_congr rfl fun q _ => congrArg (· * W.dw1 (ix2 q c)) ?_
  exact congrArg₂ (· + ·) (muz_at W x0 p q) (congrArg (fun z => Ideal.exp (half * z) * x2 (ix2 p q)) (lvz_at W x0 p q))

/-- The decoder's first product as one array of the block's inputs. -/
abbrev dec (x0 : FVec Ideal S256x1024 .f32) (x2 : FVec Ideal S256x64 .f32) : FVec Ideal S256x512 .f32 :=
  k0_pay5 (F := Ideal) x0 x2 W.w1 W.b1 W.wmu W.bmu W.wlv W.blv W.dw1

/-- A bias and a hyperbolic tangent on any [256, 512] array, at (p, c). -/
theorem bias_tanh_at (v : FVec Ideal S256x512 .f32) (p : Fin 256) (c : Fin 512) :
    k0_pay6 (F := Ideal) v W.db1 (ix2 p c) = Ideal.tanh (v (ix2 p c) + W.db1 (ix1 c)) := by
  unfold k0_pay6
  exact congrArg (fun z => Ideal.tanh (v (ix2 p c) + z)) (RowBias.bias_rows (by decide) _ _ _ p c)

/-- The decoder's hidden block at (p, c). -/
theorem hdec_at (x0 : FVec Ideal S256x1024 .f32) (x2 : FVec Ideal S256x64 .f32) (p : Fin 256) (c : Fin 512) :
    k0_pay6 (F := Ideal) (dec W x0 x2) W.db1 (ix2 p c) = hdec W (row x0 p) (row x2 p) c :=
  (bias_tanh_at W _ p c).trans (congrArg (fun z => Ideal.tanh (z + W.db1 (ix1 c))) (dec_at W x0 x2 p c))

/-- The decoder's log-variance block at (p, c). -/
theorem lvx_at (x0 : FVec Ideal S256x1024 .f32) (x2 : FVec Ideal S256x64 .f32) (p : Fin 256) (c : Fin 1024) :
    k0_pay7 (F := Ideal) (dec W x0 x2) W.db1 W.dwlv W.dblv (ix2 p c) = lvx W (row x0 p) (row x2 p) c := by
  unfold k0_pay7 lvx dense rowDot
  refine (RowLayer.kernel_dense plain4 (by decide) none _ _ _ _ _ p c).trans ?_
  exact congrArg (· + W.dblv (ix1 c)) (Finset.sum_congr rfl fun q _ => congrArg (· * W.dwlv (ix2 q c)) (hdec_at W x0 x2 p q))

/-- The precision block `exp (0 − ν)` at (p, c) is `exp (−ν)`. -/
theorem prec_at (x0 : FVec Ideal S256x1024 .f32) (x2 : FVec Ideal S256x64 .f32) (p : Fin 256) (c : Fin 1024) :
    k0_pay10 (F := Ideal) (dec W x0 x2) W.db1 W.dwlv W.dblv (ix2 p c) = Ideal.exp (-(lvx W (row x0 p) (row x2 p) c)) := by
  unfold k0_pay10
  show Ideal.exp (Ideal.ofBits .f32 0x00000000#32 - k0_pay7 (F := Ideal) (dec W x0 x2) W.db1 W.dwlv W.dblv (ix2 p c)) = _
  rw [Ideal.ofBits_zero_f32, zero_sub, lvx_at]

/-- The squared error against the softmax of the logits, at (p, c). -/
theorem sq_at (x0 x1 : FVec Ideal S256x1024 .f32) (x2 : FVec Ideal S256x64 .f32) (p : Fin 256) (c : Fin 1024) :
    k0_pay9 (F := Ideal) x1 (dec W x0 x2) W.db1 W.dwmu W.dbmu (ix2 p c)
      = sqErr (row x1 p) (RowSoftmax.softmax (logit W (row x0 p) (row x2 p))) c := by
  unfold k0_pay9
  refine congrArg (fun z => (x1 (ix2 p c) - z) * (x1 (ix2 p c) - z)) ?_
  refine (RowSoftmax.kernel_softmax _ _ _ _ _ _ _ p c).trans ?_
  refine congrArg (fun l => RowSoftmax.softmax l c) (funext fun k => ?_)
  refine (RowLayer.kernel_dense plain4 (by decide) none _ _ _ _ _ p k).trans ?_
  exact congrArg (· + W.dbmu (ix1 k)) (Finset.sum_congr rfl fun q _ => congrArg (· * W.dwmu (ix2 q k)) (hdec_at W x0 x2 p q))

/-- The Kullback–Leibler piece on any mean and log-variance blocks, at position p. -/
theorem kl_at (v19 v26 : FVec Ideal S256x64 .f32) (p : Fin 256) :
    k0_pay8 (F := Ideal) v19 v26 (ix1 p) = klOf (fun c => v19 (ix2 p c)) (fun c => v26 (ix2 p c)) := by
  unfold k0_pay8 klOf
  exact congrArg (mhalf * ·) (AxisFold.row_sum _ _ _ _ p)

/-- The last piece on any blocks, at position p: the log-likelihood sum minus the Kullback–Leibler term. -/
theorem ll_at (v66 : FVec Ideal S256x1024 .f32) (v75 : FVec Ideal S256 .f32) (v77 v80 : FVec Ideal S256x1024 .f32) (p : Fin 256) :
    k0_pay1 (F := Ideal) v66 v75 v77 v80 (ix1 p)
      = llOf (fun c => v66 (ix2 p c)) (fun c => v77 (ix2 p c)) (fun c => v80 (ix2 p c)) - one * v75 (ix1 p) := by
  unfold k0_pay1 llOf
  exact congrArg (fun z => mhalf * z - one * v75 (ix1 p)) (AxisFold.row_sum _ _ _ _ p)

/-- The value the body stores at position p of its block is the objective of sample p of the block. -/
theorem stored_at (x0 x1 : FVec Ideal S256x1024 .f32) (x2 : FVec Ideal S256x64 .f32) (p : Fin 256) :
    k0_pay1 (F := Ideal) (k0_pay7 (dec W x0 x2) W.db1 W.dwlv W.dblv)
        (k0_pay8 (k0_pay3 x0 W.w1 W.b1 W.wmu W.bmu) (k0_pay4 x0 W.w1 W.b1 W.wlv W.blv))
        (k0_pay9 x1 (dec W x0 x2) W.db1 W.dwmu W.dbmu) (k0_pay10 (dec W x0 x2) W.db1 W.dwlv W.dblv) (ix1 p)
      = loss W (row x0 p) (row x1 p) (row x2 p) := by
  rw [ll_at, kl_at]
  unfold loss
  simp only [lvx_at, sq_at, prec_at, muz_at, lvz_at]

end Cert.Vae.KernelRow

end
-- ==== Proof.KernelValue.lean ====
/-
  The kernel program's result as a function of its arguments.

  The grid has 256 points; point t stages rows 256·t … 256·t + 255 of the three sample arrays and the whole
  of each weight array, and writes back entries 256·t … 256·t + 255 of the per-sample vector. By the row
  reading of the body, what point t writes back is block t of ONE vector: entry i is the objective of
  sample i. The 256 blocks cover the vector, so after the grid the vector is that function, and the two
  host operations after the grid take its mean.
-/
import proofs.«144651_j11493332484853_1_alg».proof.Proof.Gen.KernelIdeal.Frame
import proofs.«144651_j11493332484853_1_alg».proof.Proof.KernelRow
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Vae.KernelValue

open Cert.KernelIdeal Cert.KernelIdeal.Gen Cert.Vae

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ## The index maps, decided over the grid -/

/-- The three sample windows and the output window move with the grid point along the rows. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 1) = t.val :=
  (by decide +kernel : ∀ t : Fin grid0.N, _)

/-- The weight windows stay at block zero: each stages its whole array at every point. -/
theorem idx3 : ∀ (t : Fin cfg0.N) (a : Fin 2), win0_3.index t a = 0 :=
  (by decide +kernel : ∀ (t : Fin grid0.N) (a : Fin 2), _)
theorem idx4 : ∀ (t : Fin cfg0.N) (a : Fin 1), win0_4.index t a = 0 :=
  (by decide +kernel : ∀ (t : Fin grid0.N) (a : Fin 1), _)
theorem idx5 : ∀ (t : Fin cfg0.N) (a : Fin 2), win0_5.index t a = 0 :=
  (by decide +kernel : ∀ (t : Fin grid0.N) (a : Fin 2), _)
theorem idx6 : ∀ (t : Fin cfg0.N) (a : Fin 1), win0_6.index t a = 0 :=
  (by decide +kernel : ∀ (t : Fin grid0.N) (a : Fin 1), _)
theorem idx7 : ∀ (t : Fin cfg0.N) (a : Fin 2), win0_7.index t a = 0 :=
  (by decide +kernel : ∀ (t : Fin grid0.N) (a : Fin 2), _)
theorem idx8 : ∀ (t : Fin cfg0.N) (a : Fin 1), win0_8.index t a = 0 :=
  (by decide +kernel : ∀ (t : Fin grid0.N) (a : Fin 1), _)
theorem idx9 : ∀ (t : Fin cfg0.N) (a : Fin 2), win0_9.index t a = 0 :=
  (by decide +kernel : ∀ (t : Fin grid0.N) (a : Fin 2), _)
theorem idx10 : ∀ (t : Fin cfg0.N) (a : Fin 1), win0_10.index t a = 0 :=
  (by decide +kernel : ∀ (t : Fin grid0.N) (a : Fin 1), _)
theorem idx11 : ∀ (t : Fin cfg0.N) (a : Fin 2), win0_11.index t a = 0 :=
  (by decide +kernel : ∀ (t : Fin grid0.N) (a : Fin 2), _)
theorem idx12 : ∀ (t : Fin cfg0.N) (a : Fin 1), win0_12.index t a = 0 :=
  (by decide +kernel : ∀ (t : Fin grid0.N) (a : Fin 1), _)
theorem idx13 : ∀ (t : Fin cfg0.N) (a : Fin 2), win0_13.index t a = 0 :=
  (by decide +kernel : ∀ (t : Fin grid0.N) (a : Fin 2), _)
theorem idx14 : ∀ (t : Fin cfg0.N) (a : Fin 1), win0_14.index t a = 0 :=
  (by decide +kernel : ∀ (t : Fin grid0.N) (a : Fin 1), _)

/-! ## The arguments as the grid finds them -/

abbrev arg0 (c : Dev nD) : Mat 65536 1024 := (V m c main_arg0 : S65536x1024.Idx → Elt Ideal .f32)
abbrev arg1 (c : Dev nD) : Mat 65536 1024 := (V m c main_arg1 : S65536x1024.Idx → Elt Ideal .f32)
abbrev arg2 (c : Dev nD) : Mat 65536 64 := (V m c main_arg2 : S65536x64.Idx → Elt Ideal .f32)

/-- The weight arrays. -/
def weights (c : Dev nD) : Weights where
  w1 := (V m c main_arg3 : S1024x512.Idx → Elt Ideal .f32)
  b1 := (V m c main_arg4 : S512.Idx → Elt Ideal .f32)
  wmu := (V m c main_arg5 : S512x64.Idx → Elt Ideal .f32)
  bmu := (V m c main_arg6 : S64.Idx → Elt Ideal .f32)
  wlv := (V m c main_arg7 : S512x64.Idx → Elt Ideal .f32)
  blv := (V m c main_arg8 : S64.Idx → Elt Ideal .f32)
  dw1 := (V m c main_arg9 : S64x512.Idx → Elt Ideal .f32)
  db1 := (V m c main_arg10 : S512.Idx → Elt Ideal .f32)
  dwmu := (V m c main_arg11 : S512x1024.Idx → Elt Ideal .f32)
  dbmu := (V m c main_arg12 : S1024.Idx → Elt Ideal .f32)
  dwlv := (V m c main_arg13 : S512x1024.Idx → Elt Ideal .f32)
  dblv := (V m c main_arg14 : S1024.Idx → Elt Ideal .f32)

/-- The objective of sample r. -/
def sample (c : Dev nD) (r : Fin 65536) : EReal := loss (weights m c) (row (arg0 m c) r) (row (arg1 m c) r) (row (arg2 m c) r)

/-- The per-sample vector. -/
abbrev perSample (c : Dev nD) : S65536.Idx → Elt Ideal .f32 := perSampleOf (weights m c) (arg0 m c) (arg1 m c) (arg2 m c)

/-! ## The blocks -/

theorem wblk3 (c : Dev nD) (t : Fin cfg0.N) :
    (iblk m c 3 t : Vec Ideal S1024x512 .f32) = (V m c main_arg3 : S1024x512.Idx → Elt Ideal .f32) := by
  funext y
  show V m c main_arg3 (((cfg0.win 3).blk t).view.emb y) = V m c main_arg3 y
  refine congrArg _ (funext fun a => Fin.ext ?_)
  match a with
  | ⟨0, _⟩ => show win0_3.index t (0 : Fin 2) * 1024 + 1 * (y 0).val = (y 0).val; rw [idx3 t (0 : Fin 2)]; omega
  | ⟨1, _⟩ => show win0_3.index t (1 : Fin 2) * 512 + 1 * (y 1).val = (y 1).val; rw [idx3 t (1 : Fin 2)]; omega

theorem wblk4 (c : Dev nD) (t : Fin cfg0.N) :
    (iblk m c 4 t : Vec Ideal S512 .f32) = (V m c main_arg4 : S512.Idx → Elt Ideal .f32) := by
  funext y
  show V m c main_arg4 (((cfg0.win 4).blk t).view.emb y) = V m c main_arg4 y
  refine congrArg _ (funext fun a => Fin.ext ?_)
  match a with
  | ⟨0, _⟩ => show win0_4.index t (0 : Fin 1) * 512 + 1 * (y 0).val = (y 0).val; rw [idx4 t (0 : Fin 1)]; omega

theorem wblk5 (c : Dev nD) (t : Fin cfg0.N) :
    (iblk m c 5 t : Vec Ideal S512x64 .f32) = (V m c main_arg5 : S512x64.Idx → Elt Ideal .f32) := by
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; rw [idx5 t (0 : Fin 2)]; omega
  | ⟨1, _⟩ => show win0_5.index t (1 : Fin 2) * 64 + 1 * (y 1).val = (y 1).val; rw [idx5 t (1 : Fin 2)]; omega

theorem wblk6 (c : Dev nD) (t : Fin cfg0.N) :
    (iblk m c 6 t : Vec Ideal S64 .f32) = (V m c main_arg6 : S64.Idx → Elt Ideal .f32) := by
  funext y
  show V m c main_arg6 (((cfg0.win 6).blk t).view.emb y) = V m c main_arg6 y
  refine congrArg _ (funext fun a => Fin.ext ?_)
  match a with
  | ⟨0, _⟩ => show win0_6.index t (0 : Fin 1) * 64 + 1 * (y 0).val = (y 0).val; rw [idx6 t (0 : Fin 1)]; omega

theorem wblk7 (c : Dev nD) (t : Fin cfg0.N) :
    (iblk m c 7 t : Vec Ideal S512x64 .f32) = (V m c main_arg7 : S512x64.Idx → Elt Ideal .f32) := by
  funext y
  show V m c main_arg7 (((cfg0.win 7).blk t).view.emb y) = V m c main_arg7 y
  refine congrArg _ (funext fun a => Fin.ext ?_)
  match a with
  | ⟨0, _⟩ => show win0_7.index t (0 : Fin 2) * 512 + 1 * (y 0).val = (y 0).val; rw [idx7 t (0 : Fin 2)]; omega
  | ⟨1, _⟩ => show win0_7.index t (1 : Fin 2) * 64 + 1 * (y 1).val = (y 1).val; rw [idx7 t (1 : Fin 2)]; omega

theorem wblk8 (c : Dev nD) (t : Fin cfg0.N) :
    (iblk m c 8 t : Vec Ideal S64 .f32) = (V m c main_arg8 : S64.Idx → Elt Ideal .f32) := by
  funext y
  show V m c main_arg8 (((cfg0.win 8).blk t).view.emb y) = V m c main_arg8 y
  refine congrArg _ (funext fun a => Fin.ext ?_)
  match a with
  | ⟨0, _⟩ => show win0_8.index t (0 : Fin 1) * 64 + 1 * (y 0).val = (y 0).val; rw [idx8 t (0 : Fin 1)]; omega

theorem wblk9 (c : Dev nD) (t : Fin cfg0.N) :
    (iblk m c 9 t : Vec Ideal S64x512 .f32) = (V m c main_arg9 : S64x512.Idx → Elt Ideal .f32) := by
  funext y
  show V m c main_arg9 (((cfg0.win 9).blk t).view.emb y) = V m c main_arg9 y
  refine congrArg _ (funext fun a => Fin.ext ?_)
  match a with
  | ⟨0, _⟩ => show win0_9.index t (0 : Fin 2) * 64 + 1 * (y 0).val = (y 0).val; rw [idx9 t (0 : Fin 2)]; omega
  | ⟨1, _⟩ => show win0_9.index t (1 : Fin 2) * 512 + 1 * (y 1).val = (y 1).val; rw [idx9 t (1 : Fin 2)]; omega

theorem wblk10 (c : Dev nD) (t : Fin cfg0.N) :
    (iblk m c 10 t : Vec Ideal S512 .f32) = (V m c main_arg10 : S512.Idx → Elt Ideal .f32) := by
  funext y
  show V m c main_arg10 (((cfg0.win 10).blk t).view.emb y) = V m c main_arg10 y
  refine congrArg _ (funext fun a => Fin.ext ?_)
  match a with
  | ⟨0, _⟩ => show win0_10.index t (0 : Fin 1) * 512 + 1 * (y 0).val = (y 0).val; rw [idx10 t (0 : Fin 1)]; omega

theorem wblk11 (c : Dev nD) (t : Fin cfg0.N) :
    (iblk m c 11 t : Vec Ideal S512x1024 .f32) = (V m c main_arg11 : S512x1024.Idx → Elt Ideal .f32) := by
  funext y
  show V m c main_arg11 (((cfg0.win 11).blk t).view.emb y) = V m c main_arg11 y
  refine congrArg _ (funext fun a => Fin.ext ?_)
  match a with
  | ⟨0, _⟩ => show win0_11.index t (0 : Fin 2) * 512 + 1 * (y 0).val = (y 0).val; rw [idx11 t (0 : Fin 2)]; omega
  | ⟨1, _⟩ => show win0_11.index t (1 : Fin 2) * 1024 + 1 * (y 1).val = (y 1).val; rw [idx11 t (1 : Fin 2)]; omega

theorem wblk12 (c : Dev nD) (t : Fin cfg0.N) :
    (iblk m c 12 t : Vec Ideal S1024 .f32) = (V m c main_arg12 : S1024.Idx → Elt Ideal .f32) := by
  funext y
  show V m c main_arg12 (((cfg0.win 12).blk t).view.emb y) = V m c main_arg12 y
  refine congrArg _ (funext fun a => Fin.ext ?_)
  match a with
  | ⟨0, _⟩ => show win0_12.index t (0 : Fin 1) * 1024 + 1 * (y 0).val = (y 0).val; rw [idx12 t (0 : Fin 1)]; omega

theorem wblk13 (c : Dev nD) (t : Fin cfg0.N) :
    (iblk m c 13 t : Vec Ideal S512x1024 .f32) = (V m c main_arg13 : S512x1024.Idx → Elt Ideal .f32) := by
  funext y
  show V m c main_arg13 (((cfg0.win 13).blk t).view.emb y) = V m c main_arg13 y
  refine congrArg _ (funext fun a => Fin.ext ?_)
  match a with
  | ⟨0, _⟩ => show win0_13.index t (0 : Fin 2) * 512 + 1 * (y 0).val = (y 0).val; rw [idx13 t (0 : Fin 2)]; omega
  | ⟨1, _⟩ => show win0_13.index t (1 : Fin 2) * 1024 + 1 * (y 1).val = (y 1).val; rw [idx13 t (1 : Fin 2)]; omega

theorem wblk14 (c : Dev nD) (t : Fin cfg0.N) :
    (iblk m c 14 t : Vec Ideal S1024 .f32) = (V m c main_arg14 : S1024.Idx → Elt Ideal .f32) := by
  funext y
  show V m c main_arg14 (((cfg0.win 14).blk t).view.emb y) = V m c main_arg14 y
  refine congrArg _ (funext fun a => Fin.ext ?_)
  match a with
  | ⟨0, _⟩ => show win0_14.index t (0 : Fin 1) * 1024 + 1 * (y 0).val = (y 0).val; rw [idx14 t (0 : Fin 1)]; omega

/-- Block t of sample array 0 holds rows 256·t … 256·t + 255 of the array. -/
theorem in0_at (c : Dev nD) (t : Fin cfg0.N) (p : Fin 256) (q : Fin 1024) (r : Fin 65536) (hr : r.val = 256 * t.val + p.val) :
    (iblk m c 0 t : Vec Ideal S256x1024 .f32) (ix2 p q) = arg0 m c (ix2 r q) := by
  show V m c main_arg0 (((cfg0.win 0).blk t).view.emb (ix2 p q)) = V m c main_arg0 (ix2 r q)
  refine congrArg _ (funext fun a => Fin.ext ?_)
  obtain ⟨e0, e1, e2, e3, e4, e5, -⟩ := idx_facts t
  match a with
  | ⟨0, _⟩ => show win0_0.index t (0 : Fin 2) * 256 + 1 * p.val = r.val; rw [e0, hr]; omega
  | ⟨1, _⟩ => show win0_0.index t (1 : Fin 2) * 1024 + 1 * q.val = q.val; rw [e1]; omega

theorem rows0 (c : Dev nD) (t : Fin cfg0.N) (p : Fin 256) (r : Fin 65536) (hr : r.val = 256 * t.val + p.val) :
    row (iblk m c 0 t : Vec Ideal S256x1024 .f32) p = row (arg0 m c) r :=
  funext fun q => in0_at m c t p q r hr

/-- Block t of sample array 1 holds rows 256·t … 256·t + 255 of the array. -/
theorem in1_at (c : Dev nD) (t : Fin cfg0.N) (p : Fin 256) (q : Fin 1024) (r : Fin 65536) (hr : r.val = 256 * t.val + p.val) :
    (iblk m c 1 t : Vec Ideal S256x1024 .f32) (ix2 p q) = arg1 m c (ix2 r q) := by
  show V m c main_arg1 (((cfg0.win 1).blk t).view.emb (ix2 p q)) = V m c main_arg1 (ix2 r q)
  refine congrArg _ (funext fun a => Fin.ext ?_)
  obtain ⟨e0, e1, e2, e3, e4, e5, -⟩ := idx_facts t
  match a with
  | ⟨0, _⟩ => show win0_1.index t (0 : Fin 2) * 256 + 1 * p.val = r.val; rw [e2, hr]; omega
  | ⟨1, _⟩ => show win0_1.index t (1 : Fin 2) * 1024 + 1 * q.val = q.val; rw [e3]; omega

theorem rows1 (c : Dev nD) (t : Fin cfg0.N) (p : Fin 256) (r : Fin 65536) (hr : r.val = 256 * t.val + p.val) :
    row (iblk m c 1 t : Vec Ideal S256x1024 .f32) p = row (arg1 m c) r :=
  funext fun q => in1_at m c t p q r hr

/-- Block t of sample array 2 holds rows 256·t … 256·t + 255 of the array. -/
theorem in2_at (c : Dev nD) (t : Fin cfg0.N) (p : Fin 256) (q : Fin 64) (r : Fin 65536) (hr : r.val = 256 * t.val + p.val) :
    (iblk m c 2 t : Vec Ideal S256x64 .f32) (ix2 p q) = arg2 m c (ix2 r q) := by
  show V m c main_arg2 (((cfg0.win 2).blk t).view.emb (ix2 p q)) = V m c main_arg2 (ix2 r q)
  refine congrArg _ (funext fun a => Fin.ext ?_)
  obtain ⟨e0, e1, e2, e3, e4, e5, -⟩ := idx_facts t
  match a with
  | ⟨0, _⟩ => show win0_2.index t (0 : Fin 2) * 256 + 1 * p.val = r.val; rw [e4, hr]; omega
  | ⟨1, _⟩ => show win0_2.index t (1 : Fin 2) * 64 + 1 * q.val = q.val; rw [e5]; omega

theorem rows2 (c : Dev nD) (t : Fin cfg0.N) (p : Fin 256) (r : Fin 65536) (hr : r.val = 256 * t.val + p.val) :
    row (iblk m c 2 t : Vec Ideal S256x64 .f32) p = row (arg2 m c) r :=
  funext fun q => in2_at m c t p q r hr

/-- Position p of the output's block t is entry 256·t + p of the vector. -/
theorem out_at (c : Dev nD) (t : Fin cfg0.N) (p : Fin 256) (r : Fin 65536) (hr : r.val = 256 * t.val + p.val) :
    ((cfg0.win 15).blk t).view.read (Elt Ideal) (perSample m c) (ix1 p) = sample m c r := by
  show perSample m c (((cfg0.win 15).blk t).view.emb (ix1 p)) = perSample m c (ix1 r)
  refine congrArg _ (funext fun a => Fin.ext ?_)
  obtain ⟨-, -, -, -, -, -, e6⟩ := idx_facts t
  match a with
  | ⟨0, _⟩ => show win0_15.index t (0 : Fin 1) * 256 + 1 * p.val = r.val; rw [e6, hr]; omega

/-- WHAT POINT t WRITES BACK is block t of the per-sample vector. -/
theorem flushed_eq (c : Dev nD) (t : Fin cfg0.N) :
    (dats m 0 c).flushed 15 t = ((cfg0.win 15).blk t).view.read (Elt Ideal) (perSample m c) := by
  show (cfg0.win 15).cut (grid0.coords t) ((dats m 0 c).after 15 t) = _
  rw [after0_15]
  unfold out0_15
  rw [View.canon_unit_zero hz1]
  simp only [View.ld_unit_zero (S := S256x1024) hz2, View.ld_unit_zero (S := S256x64) hz2, View.ld_unit_zero (S := S1024x512) hz2,
    View.ld_unit_zero (S := S512) hz1, View.ld_unit_zero (S := S512x64) hz2, View.ld_unit_zero (S := S64) hz1,
    View.ld_unit_zero (S := S64x512) hz2, View.ld_unit_zero (S := S512x1024) hz2, View.ld_unit_zero (S := S1024) hz1]
  rw [wblk3 m c t, wblk4 m c t, wblk5 m c t, wblk6 m c t, wblk7 m c t, wblk8 m c t, wblk9 m c t, wblk10 m c t, wblk11 m c t,
    wblk12 m c t, wblk13 m c t, wblk14 m c t]
  funext j
  obtain ⟨p, rfl⟩ : ∃ p : Fin 256, j = ix1 p := ⟨j 0, eq_ix1 j⟩
  have ht : t.val < 256 := lt_of_lt_of_eq t.isLt N_0
  have hr : (⟨256 * t.val + p.val, by have := p.isLt; omega⟩ : Fin 65536).val = 256 * t.val + p.val := rfl
  refine (KernelRow.stored_at (weights m c) (iblk m c 0 t) (iblk m c 1 t) (iblk m c 2 t) p).trans ?_
  rw [rows0 m c t p _ hr, rows1 m c t p _ hr, rows2 m c t p _ hr, out_at m c t p _ hr]
  rfl

/-- An index of the vector is in point t's block iff it lies in the block's range. -/
theorem mem_blk (t : Fin cfg0.N) (i : S65536.Idx) :
    i ∈ ((cfg0.win 15).blk t).view.set ↔ ∀ a : Fin 1, win0_15.index t a * S256.size a ≤ (i a).val ∧ (i a).val < win0_15.index t a * S256.size a + S256.size a := by
  show i ∈ ((View.whole main_v0).slice (win0_15.rect t)).set ↔ _
  rw [View.set_slice_whole, Rect.mem_set_unit]
  exact Iff.rfl

/-- Every entry is in some point's block: entry i in that of point i / 256. -/
theorem cover (i : S65536.Idx) : ∃ t : Fin cfg0.N, (cfg0.win 15).flush t = true ∧ i ∈ ((cfg0.win 15).blk t).view.set := by
  have hi : (i 0).val < 65536 := (i 0).isLt
  obtain ⟨t, ht⟩ : ∃ t : Fin cfg0.N, t.val = (i 0).val / 256 := ⟨⟨(i 0).val / 256, by rw [show cfg0.N = 256 from N_0]; omega⟩, rfl⟩
  refine ⟨t, flush0_15 t, ?_⟩
  rw [mem_blk]
  obtain ⟨-, -, -, -, -, -, e6⟩ := idx_facts t
  intro a
  match a with
  | ⟨0, _⟩ => show win0_15.index t (0 : Fin 1) * 256 ≤ (i 0).val ∧ (i 0).val < win0_15.index t (0 : Fin 1) * 256 + 256; rw [e6, ht]; omega

/-- THE VECTOR after the grid is the per-sample vector. -/
theorem final (c : Dev nD) : (dats m 0 c).arrAt 15 cfg0.N = perSample m c :=
  (dats m 0 c).arrAt_eq_of_cover 15 (perSample m c) (fun t _ => flushed_eq m c t) cover

/-! ## The host operations after the grid, and the run -/

/-- The program's result after the two host operations: the mean of the per-sample vector. -/
theorem tail_eq (c : Dev nD) :
    Pipeline.afterTail₀ cfgs (dats m) 0 (V0 m) [hostOps1] c main_v2 = mean (perSample m c) := by
  unfold Pipeline.afterTail₀
  show StableHlo.after hostOps1 _ (Proc.devRef .tc main_v2) = _
  after_results
  exact congrArg mean ((Pipeline.withArrays_arr spec0 launch0.win.arr_inj c _ _ 15).trans (final m c))

/-- The result buffer is no array of the grid's, so the frame run states it through the host tail. -/
theorem result_rest : main_v2 ∈ Pipeline.restRefs sig (cfgs 0).spec :=
  Pipeline.mem_restRefs_of main_v2 rfl (by decide)

/-- THE RUN, read: every weakly fair execution ends with the result at the mean of the per-sample vector and the
    fifteen arguments unchanged. -/
theorem run : θ_run defs (onTc (τ := τ) (main (F := Ideal))) ⟨m, fun _ => 0, ρ⟩ fun r => ∀ c : Dev nD,
      r.2.mem ((c.tc : Thread nD τ).loc main_v2) = mean (perSample m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main m ρ)

end Cert.Vae.KernelValue

end
-- ==== Proof.RefRow.lean ====
/-
  The reference's per-sample vector, read at one sample.

  The reference computes the same chain on whole arrays of 65536 samples: each stage is a row-wise
  operation, so entry i of a stage depends on row i of the three sample arrays and on the whole weight
  arrays. Stage by stage — a dense layer as a finite sum plus a bias, the row softmax, the two row sums —
  entry i of the vector the final mean is taken of is `loss` of rows i.
-/
import proofs.«144651_j11493332484853_1_alg».proof.Proof.Gen.ReferenceIdeal.Read
import proofs.«144651_j11493332484853_1_alg».proof.Proof.RowSpec
import proofs.«144651_j11493332484853_1_alg».proof.Proof.LibRowLayer
import proofs.«144651_j11493332484853_1_alg».proof.Proof.LibRowSoftmax
import proofs.«144651_j11493332484853_1_alg».proof.Proof.LibHostRowFold

noncomputable section

open scoped BigOperators

namespace Cert.Vae.RefRow

open Idealize.ShloMosaic Idealize.ShloMosaic.ValueIdx Cert.ReferenceIdeal Cert.ReferenceIdeal.Read Cert.Vae

/-- The reference's products are plain ones: rows of the left operand against columns of the right. -/
theorem plain1 : PlainDot.IsPlain dot_S65536x1024_S1024x512_S65536x512_1_0_0_1_n_n := ⟨rfl, rfl, rfl, rfl, rfl, rfl⟩
theorem plain2 : PlainDot.IsPlain dot_S65536x512_S512x64_S65536x64_1_0_0_1_n_n := ⟨rfl, rfl, rfl, rfl, rfl, rfl⟩
theorem plain3 : PlainDot.IsPlain dot_S65536x64_S64x512_S65536x512_1_0_0_1_n_n := ⟨rfl, rfl, rfl, rfl, rfl, rfl⟩
theorem plain4 : PlainDot.IsPlain dot_S65536x512_S512x1024_S65536x1024_1_0_0_1_n_n := ⟨rfl, rfl, rfl, rfl, rfl, rfl⟩

variable (W : Weights)

/-- The encoder's hidden array at (i, c). -/
theorem hid_at (x0 : FVec Ideal S65536x1024 .f32) (i : Fin 65536) (c : Fin 512) :
    val_main_v4 (F := Ideal) x0 W.w1 W.b1 (ix2 i c) = hid W (row x0 i) c := by
  unfold val_main_v4 val_main_v3 val_main_v0 val_main_v2 val_main_v1 hid dense rowDot row
  exact congrArg Ideal.tanh (RowLayer.host_dense plain1 (by decide) none _ _ _ _ _ i c)

/-- The latent mean at (i, c). -/
theorem muz_at (x0 : FVec Ideal S65536x1024 .f32) (i : Fin 65536) (c : Fin 64) :
    val_main_v8 (F := Ideal) x0 W.w1 W.b1 W.wmu W.bmu (ix2 i c) = muz W (row x0 i) c := by
  unfold val_main_v8 val_main_v5 val_main_v7 val_main_v6 muz dense rowDot
  refine (RowLayer.host_dense plain2 (by decide) none _ _ _ _ _ i c).trans ?_
  exact congrArg (· + W.bmu (ix1 c)) (Finset.sum_congr rfl fun q _ => congrArg (· * W.wmu (ix2 q c)) (hid_at W x0 i q))

/-- The latent log-variance at (i, c). -/
theorem lvz_at (x0 : FVec Ideal S65536x1024 .f32) (i : Fin 65536) (c : Fin 64) :
    val_main_v12 (F := Ideal) x0 W.w1 W.b1 W.wlv W.blv (ix2 i c) = lvz W (row x0 i) c := by
  unfold val_main_v12 val_main_v9 val_main_v11 val_main_v10 lvz dense rowDot
  refine (RowLayer.host_dense plain2 (by decide) none _ _ _ _ _ i c).trans ?_
  exact congrArg (· + W.blv (ix1 c)) (Finset.sum_congr rfl fun q _ => congrArg (· * W.wlv (ix2 q c)) (hid_at W x0 i q))

/-- The latent sample at (i, c). -/
theorem lat_at (x0 : FVec Ideal S65536x1024 .f32) (x2 : FVec Ideal S65536x64 .f32) (i : Fin 65536) (c : Fin 64) :
    val_main_v17 (F := Ideal) x0 x2 W.w1 W.b1 W.wmu W.bmu W.wlv W.blv (ix2 i c) = lat W (row x0 i) (row x2 i) c := by
  unfold val_main_v17 val_main_v16 val_main_v15 val_main_v14 val_main_v13 val_main_cst
  exact congrArg₂ (· + ·) (muz_at W x0 i c)
    (congrArg₂ (fun a z => Ideal.exp (a * z) * x2 (ix2 i c)) (Bcast.scalar_apply _ _ (ix2 i c)) (lvz_at W x0 i c))

/-- The decoder's hidden array at (i, c). -/
theorem hdec_at (x0 : FVec Ideal S65536x1024 .f32) (x2 : FVec Ideal S65536x64 .f32) (i : Fin 65536) (c : Fin 512) :
    val_main_v22 (F := Ideal) x0 x2 W.w1 W.b1 W.wmu W.bmu W.wlv W.blv W.dw1 W.db1 (ix2 i c) = hdec W (row x0 i) (row x2 i) c := by
  unfold val_main_v22 val_main_v21 val_main_v18 val_main_v20 val_main_v19 hdec dense rowDot
  refine congrArg Ideal.tanh ((RowLayer.host_dense plain3 (by decide) none _ _ _ _ _ i c).trans ?_)
  exact congrArg (· + W.db1 (ix1 c)) (Finset.sum_congr rfl fun q _ => congrArg (· * W.dw1 (ix2 q c)) (lat_at W x0 x2 i q))

/-- The logits at (i, c). -/
theorem logit_at (x0 : FVec Ideal S65536x1024 .f32) (x2 : FVec Ideal S65536x64 .f32) (i : Fin 65536) (c : Fin 1024) :
    val_main_v26 (F := Ideal) x0 x2 W.w1 W.b1 W.wmu W.bmu W.wlv W.blv W.dw1 W.db1 W.dwmu W.dbmu (ix2 i c) = logit W (row x0 i) (row x2 i) c := by
  unfold val_main_v26 val_main_v23 val_main_v25 val_main_v24 logit dense rowDot
  refine (RowLayer.host_dense plain4 (by decide) none _ _ _ _ _ i c).trans ?_
  exact congrArg (· + W.dbmu (ix1 c)) (Finset.sum_congr rfl fun q _ => congrArg (· * W.dwmu (ix2 q c)) (hdec_at W x0 x2 i q))

/-- The decoder's log-variance at (i, c). -/
theorem lvx_at (x0 : FVec Ideal S65536x1024 .f32) (x2 : FVec Ideal S65536x64 .f32) (i : Fin 65536) (c : Fin 1024) :
    val_main_v41 (F := Ideal) x0 x2 W.w1 W.b1 W.wmu W.bmu W.wlv W.blv W.dw1 W.db1 W.dwlv W.dblv (ix2 i c) = lvx W (row x0 i) (row x2 i) c := by
  unfold val_main_v41 val_main_v38 val_main_v40 val_main_v39 lvx dense rowDot
  refine (RowLayer.host_dense plain4 (by decide) none _ _ _ _ _ i c).trans ?_
  exact congrArg (· + W.dblv (ix1 c)) (Finset.sum_congr rfl fun q _ => congrArg (· * W.dwlv (ix2 q c)) (hdec_at W x0 x2 i q))

/-- The softmax of the logits at (i, c). -/
theorem prob_at (x0 : FVec Ideal S65536x1024 .f32) (x2 : FVec Ideal S65536x64 .f32) (i : Fin 65536) (c : Fin 1024) :
    val_main_v37 (F := Ideal) x0 x2 W.w1 W.b1 W.wmu W.bmu W.wlv W.blv W.dw1 W.db1 W.dwmu W.dbmu (ix2 i c) = RowSoftmax.softmax (logit W (row x0 i) (row x2 i)) c := by
  unfold val_main_v37 val_main_v36 val_main_v35 val_main_v34 val_main_cst_2 val_main_v33 val_main_v32 val_main_v31 val_main_v30
    val_main_v29 val_main_v28 val_main_cst_1 val_main_v27 val_main_cst_0
  refine (RowSoftmax.host_softmax _ _ _ _ _ _ (by decide) i c).trans ?_
  exact congrArg (fun l => RowSoftmax.softmax l c) (funext fun k => logit_at W x0 x2 i k)

/-- The Kullback–Leibler vector at i. -/
theorem kl_at (x0 : FVec Ideal S65536x1024 .f32) (i : Fin 65536) :
    val_main_v50 (F := Ideal) x0 W.w1 W.b1 W.wmu W.bmu W.wlv W.blv (ix1 i) = klOf (muz W (row x0 i)) (lvz W (row x0 i)) := by
  unfold val_main_v50 val_main_v49 val_main_cst_5 val_main_v48 val_main_cst_4 val_main_v47 val_main_v46 val_main_v45 val_main_v44
    val_main_v43 val_main_v42 val_main_cst_3 klOf
  refine congrArg₂ (· * ·) (Bcast.scalar_apply _ _ (ix1 i)) ?_
  refine (HostRowFold.row_sum_zero _ _ _ i).trans (Finset.sum_congr rfl fun k _ => ?_)
  exact congrArg₂ (· - ·)
    (congrArg₂ (· - ·) (congrArg₂ (· + ·) (Bcast.scalar_apply _ _ (ix2 i k)) (lvz_at W x0 i k))
      (congrArg₂ (· * ·) (muz_at W x0 i k) (muz_at W x0 i k)))
    (congrArg Ideal.exp (lvz_at W x0 i k))

/-- The log-likelihood vector at i. -/
theorem ll_at (x0 x1 : FVec Ideal S65536x1024 .f32) (x2 : FVec Ideal S65536x64 .f32) (i : Fin 65536) :
    val_main_v61 (F := Ideal) x0 x1 x2 W.w1 W.b1 W.wmu W.bmu W.wlv W.blv W.dw1 W.db1 W.dwmu W.dbmu W.dwlv W.dblv (ix1 i)
      = llOf (lvx W (row x0 i) (row x2 i)) (sqErr (row x1 i) (RowSoftmax.softmax (logit W (row x0 i) (row x2 i))))
          (fun c => Ideal.exp (-(lvx W (row x0 i) (row x2 i) c))) := by
  unfold val_main_v61 val_main_v60 val_main_cst_8 val_main_v59 val_main_cst_7 val_main_v58 val_main_v57 val_main_cst_6 val_main_v56
    val_main_v55 val_main_v54 val_main_v53 val_main_v52 val_main_v51 llOf
  refine congrArg₂ (· * ·) (Bcast.scalar_apply _ _ (ix1 i)) ?_
  refine (HostRowFold.row_sum_zero _ _ _ i).trans (Finset.sum_congr rfl fun k _ => ?_)
  exact congrArg₂ (· + ·)
    (congrArg₂ (· + ·) (lvx_at W x0 x2 i k)
      (congrArg₂ (· * ·) (congrArg (fun z => (x1 (ix2 i k) - z) * (x1 (ix2 i k) - z)) (prob_at W x0 x2 i k))
        (congrArg (fun z => Ideal.exp (-z)) (lvx_at W x0 x2 i k))))
    (Bcast.scalar_apply _ _ (ix2 i k))

/-- Entry i of the vector the reference averages is the objective of sample i. -/
theorem sample_at (x0 x1 : FVec Ideal S65536x1024 .f32) (x2 : FVec Ideal S65536x64 .f32) (i : Fin 65536) :
    val_main_v64 (F := Ideal) x0 x1 x2 W.w1 W.b1 W.wmu W.bmu W.wlv W.blv W.dw1 W.db1 W.dwmu W.dbmu W.dwlv W.dblv (ix1 i) = loss W (row x0 i) (row x1 i) (row x2 i) := by
  unfold val_main_v64 val_main_v63 val_main_v62 val_main_cst_9 loss
  exact congrArg₂ (· - ·) (ll_at W x0 x1 x2 i) (congrArg₂ (· * ·) (Bcast.scalar_apply _ _ (ix1 i)) (kl_at W x0 i))

end Cert.Vae.RefRow

end
-- ==== Proof.RefValue.lean ====
/-
  The reference program's result as a function of its arguments.

  The reference's run ends with its result at the composed term of its operations. That term is the mean —
  the host's float sum from zero divided by 65536 — of a vector whose entry i is, by the row reading of the
  reference's stages, the objective of sample i.
-/
import proofs.«144651_j11493332484853_1_alg».proof.Proof.Gen.ReferenceIdeal.Run
import proofs.«144651_j11493332484853_1_alg».proof.Proof.Gen.ReferenceIdeal.Read
import proofs.«144651_j11493332484853_1_alg».proof.Proof.RefRow

noncomputable section

open Idealize.ShloMosaic Idealize.ShloMosaic.TcCoe Idealize.SL.Sem Idealize.ShloMosaic.ValueIdx

namespace Cert.Vae.RefValue

open Cert.ReferenceIdeal Cert.ReferenceIdeal.Read Cert.Vae

variable (m' : (ℓ : Loc nD τ sig) → Buf (Elt Ideal) ℓ)

/-- The weight arrays. -/
def weights (c : Dev nD) : Weights where
  w1 := (m' ((c.tc : Thread nD τ).loc main_arg3) : S1024x512.Idx → Elt Ideal .f32)
  b1 := (m' ((c.tc : Thread nD τ).loc main_arg4) : S512.Idx → Elt Ideal .f32)
  wmu := (m' ((c.tc : Thread nD τ).loc main_arg5) : S512x64.Idx → Elt Ideal .f32)
  bmu := (m' ((c.tc : Thread nD τ).loc main_arg6) : S64.Idx → Elt Ideal .f32)
  wlv := (m' ((c.tc : Thread nD τ).loc main_arg7) : S512x64.Idx → Elt Ideal .f32)
  blv := (m' ((c.tc : Thread nD τ).loc main_arg8) : S64.Idx → Elt Ideal .f32)
  dw1 := (m' ((c.tc : Thread nD τ).loc main_arg9) : S64x512.Idx → Elt Ideal .f32)
  db1 := (m' ((c.tc : Thread nD τ).loc main_arg10) : S512.Idx → Elt Ideal .f32)
  dwmu := (m' ((c.tc : Thread nD τ).loc main_arg11) : S512x1024.Idx → Elt Ideal .f32)
  dbmu := (m' ((c.tc : Thread nD τ).loc main_arg12) : S1024.Idx → Elt Ideal .f32)
  dwlv := (m' ((c.tc : Thread nD τ).loc main_arg13) : S512x1024.Idx → Elt Ideal .f32)
  dblv := (m' ((c.tc : Thread nD τ).loc main_arg14) : S1024.Idx → Elt Ideal .f32)

/-- The per-sample vector. -/
abbrev perSample (c : Dev nD) : S65536.Idx → Elt Ideal .f32 :=
  perSampleOf (weights m' c) (m' ((c.tc : Thread nD τ).loc main_arg0) : S65536x1024.Idx → Elt Ideal .f32)
    (m' ((c.tc : Thread nD τ).loc main_arg1) : S65536x1024.Idx → Elt Ideal .f32)
    (m' ((c.tc : Thread nD τ).loc main_arg2) : S65536x64.Idx → Elt Ideal .f32)

/-- The reference's result is the mean of the per-sample vector. -/
theorem result_eq (c : Dev nD) : Cert.ReferenceIdeal.Value.res_main_v66 m' c = mean (perSample m' c) := by
  rw [val_main_v66_eq]
  unfold val_main_v66 val_main_v65 val_main_cst_10 val_main_cst_11
  refine congrArg mean (funext fun i => ?_)
  obtain ⟨r, rfl⟩ : ∃ r : Fin 65536, i = ix1 r := ⟨i 0, eq_ix1 i⟩
  exact RefRow.sample_at (weights m' c) _ _ _ r

end Cert.Vae.RefValue

end
-- ==== Proof.lean ====
/-
  A variational autoencoder's objective, averaged over 65536 samples: a fused kernel against its reference.

  Both programs compute, for every sample, the same chain — an encoder layer with a hyperbolic tangent, the
  latent mean and log-variance, a reparameterised latent sample, a decoder layer, a softmax over 1024 logits,
  a Kullback–Leibler sum and a Gaussian log-likelihood sum — and then the mean over the samples. The kernel
  does it in 256 grid points of 256 samples each, with the weight arrays staged whole at every point, rounds
  operands to a narrower float format on the way into each product, and writes `0 − ν` where the reference
  negates; the reference works on whole arrays. On the extended reals a format change is the identity, a
  product into a zero accumulator and a contraction are the same finite sum, a lane reduction and a host
  reduction are the same sum or fold, and `0 − ν = −ν`. Every stage is row-wise, so entry i of the vector both
  programs average is one function of rows i of the three sample arrays and of the weights
  (Proof/RowSpec.lean: `loss`): for the kernel by the row reading of its body and the cover of the vector
  by the 256 blocks (Proof/KernelRow.lean, Proof/KernelValue.lean), for the reference by the row reading of
  its stages (Proof/RefRow.lean, Proof/RefValue.lean). The mean is the same two host operations on both
  sides and is never opened. No law that needs finite operands is used, so the precondition is not opened.

  The three frames are the generated frame runs (the reference's is its generated run with the result
  dropped); the idealization rewrote nothing, so its conjunct is trivial.
-/
import proofs.«144651_j11493332484853_1_alg».proof.Defs
import proofs.«144651_j11493332484853_1_alg».proof.Proof.Gen.Kernel
import proofs.«144651_j11493332484853_1_alg».proof.Proof.Gen.Kernel.Skeleton
import proofs.«144651_j11493332484853_1_alg».proof.Proof.Gen.Kernel.Launch
import proofs.«144651_j11493332484853_1_alg».proof.Proof.Gen.Kernel.Points
import proofs.«144651_j11493332484853_1_alg».proof.Proof.Gen.Kernel.Frame
import proofs.«144651_j11493332484853_1_alg».proof.Proof.Gen.KernelIdeal
import proofs.«144651_j11493332484853_1_alg».proof.Proof.Gen.KernelIdeal.Skeleton
import proofs.«144651_j11493332484853_1_alg».proof.Proof.Gen.KernelIdeal.Launch
import proofs.«144651_j11493332484853_1_alg».proof.Proof.Gen.KernelIdeal.Points
import proofs.«144651_j11493332484853_1_alg».proof.Proof.Gen.KernelIdeal.Frame
import proofs.«144651_j11493332484853_1_alg».proof.Proof.Gen.ReferenceIdeal
import proofs.«144651_j11493332484853_1_alg».proof.Proof.Gen.ReferenceIdeal.Run
import proofs.«144651_j11493332484853_1_alg».proof.Proof.Gen.ReferenceIdeal.Read
import proofs.«144651_j11493332484853_1_alg».proof.Proof.Gen.Pre_finite_inputs
import proofs.«144651_j11493332484853_1_alg».proof.Proof.KernelValue
import proofs.«144651_j11493332484853_1_alg».proof.Proof.RefValue
import Idealize.ShloMosaic.Adequacy
import Idealize.ShloMosaic.Init

noncomputable section

namespace Cert.Proof

open Idealize.ShloMosaic Idealize.SL.Sem Cert.Vae

/-- The word-level kernel runs and keeps its arguments: the generated frame run. -/
theorem frame_k : Cert.frame_Kernel := fun m ρ _ => Cert.Kernel.Gen.frame m ρ

/-- The idealized kernel runs and keeps its arguments: the generated frame run. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the fifteen arguments both programs end with the mean of the same per-sample
    vector: the kernel's by its blocks, the reference's by its stages, the arguments' agreement rewritten. -/
theorem algebraic : Cert.algebraic_KernelIdeal_ReferenceIdeal := by
  intro m ρ m' ρ' _ hagree
  refine ⟨fun c => mean (KernelValue.perSample m c), KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [RefValue.result_eq m' c]
  unfold RefValue.perSample RefValue.weights
  rw [h0, h1, h2, h3, h4, h5, h6, h7, h8, h9, h10, h11, h12, h13, h14]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
